-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x40960 : Shape := ⟨2, ![4096, 40960]⟩
abbrev S4096 : Shape := ⟨1, ![4096]⟩
abbrev S128x40960 : Shape := ⟨2, ![128, 40960]⟩
abbrev S1x256 : Shape := ⟨2, ![1, 256]⟩
abbrev S_ : Shape := ⟨0, ![]⟩

class Facts : Prop where
  bcast_S_S4096x40960 : S_.BroadcastsInDim S4096x40960 (![] : Fin 0 → Fin S4096x40960.rank)
  reducesTo_S4096x40960_S_d0_1 : S4096x40960.ReducesTo [0, 1] S_
  h_S_ : 0 < S_.numel
  bcast_S_S128x40960 : S_.BroadcastsInDim S128x40960 (![] : Fin 0 → Fin S128x40960.rank)
  reducesTo_S128x40960_S_d0_1 : S128x40960.ReducesTo [0, 1] S_
  bcast_S_S1x256 : S_.BroadcastsInDim S1x256 (![] : Fin 0 → Fin S1x256.rank)
  reducesTo_S1x256_S_d0_1 : S1x256.ReducesTo [0, 1] S_

variable [Facts]

def fn_part1 {F : FTy → Type} [FloatOps F] (main_arg5 : FVec F S1x256 .f32) (main_v13 : IVec S_ 1) (main_v16 : IVec S128x40960 1) : IVec S_ 1 :=
  let main_c_5 : IVec S_ 1 := constantI S_ 1 1#1
  let main_v17 : IVec S_ 1 := (fun x v => Host.reduce IntOp.andi x v reducesTo_S128x40960_S_d0_1 h_S_) main_v16 main_c_5
  let main_v18 : IVec S_ 1 := andi main_v13 main_v17
  let main_v19 : FVec F S1x256 .f32 := Host.absf main_arg5
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  main_v23

def fn {F : FTy → Type} [FloatOps F] (main_arg0 : FVec F S4096x40960 .f32) (main_arg1 : FVec F S4096x40960 .f32) (main_arg2 : IVec S4096 32) (main_arg3 : FVec F S128x40960 .f32) (main_arg4 : FVec F S128x40960 .f32) (main_arg5 : FVec F S1x256 .f32) : IVec S_ 1 :=
  let main_v0 : FVec F S4096x40960 .f32 := Host.absf main_arg0
  let main_cst : FVec F S_ .f32 := constant S_ .f32 0x7F800000#32
  let main_v1 : FVec F S4096x40960 .f32 := broadcastInDim S4096x40960 ![] bcast_S_S4096x40960 main_cst
  let main_v2 : IVec S4096x40960 1 := cmpf .olt main_v0 main_v1
  let main_c : IVec S_ 1 := constantI S_ 1 1#1
  let main_v3 : IVec S_ 1 := (fun x v => Host.reduce IntOp.andi x v reducesTo_S4096x40960_S_d0_1 h_S_) main_v2 main_c
  let main_v4 : FVec F S4096x40960 .f32 := Host.absf main_arg1
  let main_cst_0 : FVec F S_ .f32 := constant S_ .f32 0x7F800000#32
  let main_v5 : FVec F S4096x40960 .f32 := broadcastInDim S4096x40960 ![] bcast_S_S4096x40960 main_cst_0
  let main_v6 : IVec S4096x40960 1 := cmpf .olt main_v4 main_v5
  let main_c_1 : IVec S_ 1 := constantI S_ 1 1#1
  let main_v7 : IVec S_ 1 := (fun x v => Host.reduce IntOp.andi x v reducesTo_S4096x40960_S_d0_1 h_S_) main_v6 main_c_1
  let main_v8 : IVec S_ 1 := andi main_v3 main_v7
  let main_v9 : FVec F S128x40960 .f32 := Host.absf main_arg3
  let main_cst_2 : FVec F S_ .f32 := constant S_ .f32 0x7F800000#32
  let main_v10 : FVec F S128x40960 .f32 := broadcastInDim S128x40960 ![] bcast_S_S128x40960 main_cst_2
  let main_v11 : IVec S128x40960 1 := cmpf .olt main_v9 main_v10
  let main_c_3 : IVec S_ 1 := constantI S_ 1 1#1
  let main_v12 : IVec S_ 1 := (fun x v => Host.reduce IntOp.andi x v reducesTo_S128x40960_S_d0_1 h_S_) main_v11 main_c_3
  let main_v13 : IVec S_ 1 := andi main_v8 main_v12
  let main_v14 : FVec F S128x40960 .f32 := Host.absf main_arg4
  let main_cst_4 : FVec F S_ .f32 := constant S_ .f32 0x7F800000#32
  let main_v15 : FVec F S128x40960 .f32 := broadcastInDim S128x40960 ![] bcast_S_S128x40960 main_cst_4
  let main_v16 : IVec S128x40960 1 := cmpf .olt main_v14 main_v15
  fn_part1 (F := F) main_arg5 main_v13 main_v16
-- ==== Kernel.lean ====
abbrev S4096x40960 : Shape := ⟨2, ![4096, 40960]⟩
abbrev S4096 : Shape := ⟨1, ![4096]⟩
abbrev S128x40960 : Shape := ⟨2, ![128, 40960]⟩
abbrev S1x256 : Shape := ⟨2, ![1, 256]⟩
abbrev S4096x1 : Shape := ⟨2, ![4096, 1]⟩
abbrev S512x2048 : Shape := ⟨2, ![512, 2048]⟩
abbrev S128x2048 : Shape := ⟨2, ![128, 2048]⟩
abbrev S512x1 : Shape := ⟨2, ![512, 1]⟩
abbrev S512x128 : Shape := ⟨2, ![512, 128]⟩
abbrev S512x256 : Shape := ⟨2, ![512, 256]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096, .i32⟩
  | .hbm, ⟨3, _⟩ => ⟨S128x40960, .f32⟩
  | .hbm, ⟨4, _⟩ => ⟨S128x40960, .f32⟩
  | .hbm, ⟨5, _⟩ => ⟨S1x256, .f32⟩
  | .hbm, ⟨6, _⟩ => ⟨S4096x1, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S1x256, .f32⟩
  | .local _ .vmem, ⟨9, _⟩ => ⟨S512x1, .f32⟩
  | .local _ .vmem, ⟨10, _⟩ => ⟨S512x1, .f32⟩
  | .local _ .vmem, ⟨11, _⟩ => ⟨S512x128, .f32⟩
  | .local _ .vmem, ⟨12, _⟩ => ⟨S512x128, .f32⟩
  | _, _ => ⟨S4096x40960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 20], ![false, false]⟩

def k0_cond2 (i : grid0.Coords) : BitVec 1 :=
  let arg1 : BitVec 32 := BitVec.ofNat 32 (i 1).val
  let c19_i32 : BitVec 32 := 19#32
  let v23 : BitVec 1 := Scalar.cmpi .eq arg1 c19_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  concatenates_S512x128_S512x128_S512x256_d1 : Shape.Concatenates [S512x128, S512x128] S512x256 1
  inb_S1x256_S1x256_0_0 : ∀ a, (![0, 0] : Fin 2 → Nat) a + S1x256.size a ≤ S1x256.size a
  h_S1x256 : 0 < S1x256.numel
  broadcasts_S1x256_S512x256 : S1x256.Broadcasts S512x256
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  dot_S512x2048_S128x2048_S512x128_1_1_0_0_n_n_wf : DotDims.WF S512x2048 S128x2048 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x40960.size a
  hwx0_0 : ∀ i : grid0.Coords, EltTy.bits .f32 = 32 ∨ (Rect.block (s := S4096x40960) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x40960.size a
  hwx0_1 : ∀ i : grid0.Coords, EltTy.bits .f32 = 32 ∨ (Rect.block (s := S4096x40960) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S128x40960.size a
  hwx0_2 : ∀ i : grid0.Coords, EltTy.bits .f32 = 32 ∨ (Rect.block (s := S128x40960) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x40960.size a
  hwx0_3 : ∀ i : grid0.Coords, EltTy.bits .f32 = 32 ∨ (Rect.block (s := S128x40960) S128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x2048_S128x2048_S512x128_1_1_0_0_n_n : DotDims S512x2048 S128x2048 S512x128 where
  lhsContracting := [1]
  rhsContracting := [1]
  lhsNonContracting := [0]
  rhsNonContracting := [0]
  lhsBatch := []
  rhsBatch := []
  wf := dot_S512x2048_S128x2048_S512x128_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x40960 : Shape := ⟨2, ![4096, 40960]⟩
abbrev S4096 : Shape := ⟨1, ![4096]⟩
abbrev S128x40960 : Shape := ⟨2, ![128, 40960]⟩
abbrev S1x256 : Shape := ⟨2, ![1, 256]⟩
abbrev S4096x128 : Shape := ⟨2, ![4096, 128]⟩
abbrev S_ : Shape := ⟨0, ![]⟩
abbrev S4096x256 : Shape := ⟨2, ![4096, 256]⟩
abbrev S4096x1 : Shape := ⟨2, ![4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S4096x40960, .f32⟩
  | .hbm, ⟨1, _⟩ => ⟨S4096x40960, .f32⟩
  | .hbm, ⟨2, _⟩ => ⟨S4096, .i32⟩
  | .hbm, ⟨3, _⟩ => ⟨S128x40960, .f32⟩
  | .hbm, ⟨4, _⟩ => ⟨S128x40960, .f32⟩
  | .hbm, ⟨5, _⟩ => ⟨S1x256, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S_, .f32⟩
  | .hbm, ⟨12, _⟩ => ⟨S4096x128, .f32⟩
  | .hbm, ⟨13, _⟩ => ⟨S4096x128, .f32⟩
  | .hbm, ⟨14, _⟩ => ⟨S4096x256, .f32⟩
  | .hbm, ⟨15, _⟩ => ⟨S4096x1, .f32⟩
  | _, _ => ⟨S4096x40960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_call1_cst : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  concatenates_S4096x128_S4096x128_S4096x256_d1 : Shape.Concatenates [S4096x128, S4096x128] S4096x256 1
  dot_S4096x40960_S128x40960_S4096x128_1_1_0_0_n_n_wf : DotDims.WF S4096x40960 S128x40960 S4096x128 [1] [1] [0] [0] [] []
  dot_S4096x256_S1x256_S4096x1_1_1_0_0_n_n_wf : DotDims.WF S4096x256 S1x256 S4096x1 [1] [1] [0] [0] [] []

variable [Facts₀]

def dot_S4096x40960_S128x40960_S4096x128_1_1_0_0_n_n : DotDims S4096x40960 S128x40960 S4096x128 where
  lhsContracting := [1]
  rhsContracting := [1]
  lhsNonContracting := [0]
  rhsNonContracting := [0]
  lhsBatch := []
  rhsBatch := []
  wf := dot_S4096x40960_S128x40960_S4096x128_1_1_0_0_n_n_wf
def dot_S4096x256_S1x256_S4096x1_1_1_0_0_n_n : DotDims S4096x256 S1x256 S4096x1 where
  lhsContracting := [1]
  rhsContracting := [1]
  lhsNonContracting := [0]
  rhsNonContracting := [0]
  lhsBatch := []
  rhsBatch := []
  wf := dot_S4096x256_S1x256_S4096x1_1_1_0_0_n_n_wf

class Facts : Prop extends Facts₀ where

variable [Facts]
-- ==== Proof.Pieces.lean ====
/-
  What one grid point leaves in the two accumulators and in the output block, as values.

  The kernel's body at a grid point (i, k) keeps two accumulators of shape [512, 128], one per branch of the
  network. Each point adds to an accumulator the product of the point's [512, 2048] block of activations with the
  point's [128, 2048] block of weights (contracted along the 2048 features of the block); at the first feature block
  (k = 0) the accumulator is first set to zero, and at the last one (k = 19) the output block [512, 1] is computed from
  the two finished accumulators and the second-layer weights.

  The three cases of the body (first block, a middle block, last block) are read here as pure functions of the
  blocks the point is given and of what the previous point left in the accumulators:
    first block :  acc = step (zero),          nothing stored to the output;
    middle block:  acc = step (previous acc),  nothing stored to the output;
    last block  :  acc = step (previous acc),  output = finish (acc₁, acc₂, w2),
  where step is the body's accumulate payload and finish its final payload. Every store of the body covers its
  whole buffer and every load reads a whole buffer, so reading the stores back gives the stored payloads themselves.
-/
import proofs.«151705_j38869454029100_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First feature block, branch 1: the accumulator is set to zero, read back, and the block's product added. -/
theorem acc1_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 x1 : Vec F S512x2048 .f32) (x2 x3 : Vec F S128x2048 .f32) (x4 : Vec F S1x256 .f32) :
    sout0_A_0 c i arg2 harg2 arg3 harg3 arg4 harg4 arg5 harg5 arg6 harg6 arg7 harg7 arg8 harg8 arg9 harg9 hc0 hc1 x0 x1 x2 x3 x4 = k0_pay3 x0 x2 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x128) hz, View.readCov_unit_zero (S := S512x128) _ hz]
  simp only [View.readAt_eq_ld, harg2.read_unread, harg4.read_unread, View.ld_unit_zero (S := S512x2048) hz, View.ld_unit_zero (S := S128x2048) hz, View.ld_unit_zero (S := S512x128) hz, View.ld_unit_zero (S := S1x256) hz]

/-- First feature block, branch 2. -/
theorem acc2_A (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : cond0_0 i) (hc1 : ¬cond0_1 i) (x0 x1 : Vec F S512x2048 .f32) (x2 x3 : Vec F S128x2048 .f32) (x4 : Vec F S1x256 .f32) :
    sout0_A_1 c i arg2 harg2 arg3 harg3 arg4 harg4 arg5 harg5 arg6 harg6 arg7 harg7 arg8 harg8 arg9 harg9 hc0 hc1 x0 x1 x2 x3 x4 = k0_pay4 x1 x3 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S512x128) hz, View.readCov_unit_zero (S := S512x128) _ hz]
  simp only [View.readAt_eq_ld, harg3.read_unread, harg5.read_unread, View.ld_unit_zero (S := S512x2048) hz, View.ld_unit_zero (S := S128x2048) hz, View.ld_unit_zero (S := S512x128) hz, View.ld_unit_zero (S := S1x256) hz]

/-- A middle feature block, branch 1: the block's product is added to what the previous point left. -/
theorem acc1_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 x1 : Vec F S512x2048 .f32) (x2 x3 : Vec F S128x2048 .f32) (x4 : Vec F S1x256 .f32) (xs0 xs1 : Vec F S512x128 .f32) :
    sout0_B_0 c i arg2 harg2 arg3 harg3 arg4 harg4 arg5 harg5 arg6 harg6 arg7 harg7 arg8 harg8 arg9 harg9 hc0 hc1 x0 x1 x2 x3 x4 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz]
  simp only [View.readAt_eq_ld, harg2.read_unread, harg4.read_unread, harg8.read_unread, View.ld_unit_zero (S := S512x2048) hz, View.ld_unit_zero (S := S128x2048) hz, View.ld_unit_zero (S := S512x128) hz, View.ld_unit_zero (S := S1x256) hz]

/-- A middle feature block, branch 2. -/
theorem acc2_B (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : ¬cond0_1 i) (x0 x1 : Vec F S512x2048 .f32) (x2 x3 : Vec F S128x2048 .f32) (x4 : Vec F S1x256 .f32) (xs0 xs1 : Vec F S512x128 .f32) :
    sout0_B_1 c i arg2 harg2 arg3 harg3 arg4 harg4 arg5 harg5 arg6 harg6 arg7 harg7 arg8 harg8 arg9 harg9 hc0 hc1 x0 x1 x2 x3 x4 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz]
  simp only [View.readAt_eq_ld, harg3.read_unread, harg5.read_unread, harg9.read_unread, View.ld_unit_zero (S := S512x2048) hz, View.ld_unit_zero (S := S128x2048) hz, View.ld_unit_zero (S := S512x128) hz, View.ld_unit_zero (S := S1x256) hz]

/-- The last feature block, branch 1: as a middle block. -/
theorem acc1_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 x1 : Vec F S512x2048 .f32) (x2 x3 : Vec F S128x2048 .f32) (x4 : Vec F S1x256 .f32) (xs0 xs1 : Vec F S512x128 .f32) :
    sout0_C_0 c i arg2 harg2 arg3 harg3 arg4 harg4 arg5 harg5 arg6 harg6 arg7 harg7 arg8 harg8 arg9 harg9 hc0 hc1 x0 x1 x2 x3 x4 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg4.read_unread, harg8.read_unread, View.ld_unit_zero (S := S512x2048) hz, View.ld_unit_zero (S := S128x2048) hz, View.ld_unit_zero (S := S512x128) hz, View.ld_unit_zero (S := S1x256) hz]

/-- The last feature block, branch 2. -/
theorem acc2_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 x1 : Vec F S512x2048 .f32) (x2 x3 : Vec F S128x2048 .f32) (x4 : Vec F S1x256 .f32) (xs0 xs1 : Vec F S512x128 .f32) :
    sout0_C_1 c i arg2 harg2 arg3 harg3 arg4 harg4 arg5 harg5 arg6 harg6 arg7 harg7 arg8 harg8 arg9 harg9 hc0 hc1 x0 x1 x2 x3 x4 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg3.read_unread, harg5.read_unread, harg9.read_unread, View.ld_unit_zero (S := S512x2048) hz, View.ld_unit_zero (S := S128x2048) hz, View.ld_unit_zero (S := S512x128) hz, View.ld_unit_zero (S := S1x256) hz]

/-- The last feature block: the output block is the final payload of the two accumulators just completed (each read
    back from its buffer after the accumulating store) and of the second-layer weights. -/
theorem out_C (c : Dev nD) (i : grid0.Coords) (arg2 : Memref sig .tc .vmem S512x2048 .f32) (harg2 : arg2.IsWhole) (arg3 : Memref sig .tc .vmem S512x2048 .f32) (harg3 : arg3.IsWhole) (arg4 : Memref sig .tc .vmem S128x2048 .f32) (harg4 : arg4.IsWhole) (arg5 : Memref sig .tc .vmem S128x2048 .f32) (harg5 : arg5.IsWhole) (arg6 : Memref sig .tc .vmem S1x256 .f32) (harg6 : arg6.IsWhole) (arg7 : Memref sig .tc .vmem S512x1 .f32) (harg7 : arg7.IsWhole) (arg8 : Memref sig .tc .vmem S512x128 .f32) (harg8 : arg8.IsWhole) (arg9 : Memref sig .tc .vmem S512x128 .f32) (harg9 : arg9.IsWhole) (hc0 : ¬cond0_0 i) (hc1 : cond0_1 i) (x0 x1 : Vec F S512x2048 .f32) (x2 x3 : Vec F S128x2048 .f32) (x4 : Vec F S1x256 .f32) (xs0 xs1 : Vec F S512x128 .f32) :
    out0_C_5 c i arg2 harg2 arg3 harg3 arg4 harg4 arg5 harg5 arg6 harg6 arg7 harg7 arg8 harg8 arg9 harg9 hc0 hc1 x0 x1 x2 x3 x4 xs0 xs1 = k0_pay5 (k0_pay3 x0 x2 xs0) (k0_pay4 x1 x3 xs1) x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz, View.readCov_unit_zero (S := S512x128) _ hz, View.readCov_unit_zero (S := S512x128) _ hz]
  simp only [View.readAt_eq_ld, harg2.read_unread, harg3.read_unread, harg4.read_unread, harg5.read_unread, harg6.read_unread, harg8.read_unread, harg9.read_unread, View.ld_unit_zero (S := S512x2048) hz, View.ld_unit_zero (S := S128x2048) hz, View.ld_unit_zero (S := S512x128) hz, View.ld_unit_zero (S := S1x256) hz]

end Cert.KernelIdeal.Pieces

end
-- ==== Proof.LibRowDot.lean ====
/-
  A matrix product with BOTH operands contracted along their second axis, [M, K] × [N, K] → [M, N], read at an index
  over the extended reals.

  This is a product against a transposed right operand that is never transposed in memory: with the contraction on
  axis 1 of the left operand and axis 1 of the right operand and no batch axis, the entry (p, q) of the product is the
  sum over k of lhs (p, k) · rhs (q, k) — the inner product of row p of the left operand with row q of the right one.
  It holds for a matrix unit's product into a zero accumulator (matmul_zero_apply), into any accumulator
  (matmul_acc_apply), and for the host's dot_general (dotGeneral_apply), whatever precision or schedule key they
  carry. All three follow from re-indexing the sum over the one-axis contraction shape by its coordinate (contr_sum).
-/
import Idealize.ShloMosaic.PureOps.Ideal.Laws
import Idealize.ShloMosaic.Lib.ValueIdx

noncomputable section

open scoped BigOperators

namespace Cert.RowDot

open Idealize.ShloMosaic Idealize.ShloMosaic.ValueIdx

variable {M K N : Nat}

/-- The dimension numbers of the row-by-row product. -/
abbrev rowDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowDims M K N wf).contr.Idx) :
    ((rowDims M K N wf).lhsIdx j r 0).val = (j 0).val := by
  unfold DotDims.lhsIdx
  rw [dif_neg (show ¬ (0 : Fin 2) ∈ (rowDims M K N wf).lhsBatch from List.not_mem_nil),
    dif_pos (show (0 : Fin 2) ∈ (rowDims M K N wf).lhsNonContracting from List.mem_singleton.mpr rfl)]
  rfl

/-- The right operand's ROW coordinate is the result's column, whatever the contraction index. -/
theorem rhs_row (j : (⟨2, ![M, N]⟩ : Shape).Idx) (r : (rowDims M K N wf).contr.Idx) :
    ((rowDims M K N wf).rhsIdx j r 0).val = (j 1).val := by
  unfold DotDims.rhsIdx
  rw [dif_neg (show ¬ (0 : Fin 2) ∈ (rowDims M K N wf).rhsBatch from List.not_mem_nil),
    dif_pos (show (0 : Fin 2) ∈ (rowDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowDims M K N wf).contr.Idx, lhs ((rowDims M K N wf).lhsIdx (ix2 p q) k) * rhs ((rowDims M K N wf).rhsIdx (ix2 p q) k)
      = ∑ k : Fin K, lhs (ix2 p k) * rhs (ix2 q k) := by
  rw [← Equiv.sum_comp (contrEquiv1 (rowDims M K N wf) K rfl rfl).symm]
  refine Finset.sum_congr rfl fun k _ => ?_
  have hk := contrEquiv1_symm_val (rowDims M K N wf) K rfl rfl k
  have el : (rowDims M K N wf).lhsIdx (ix2 p q) ((contrEquiv1 (rowDims M K N wf) K rfl rfl).symm k) = ix2 p k :=
    funext fun a => Fin.ext (by
      match a with
      | ⟨0, _⟩ => exact lhs_row wf _ _
      | ⟨1, _⟩ => exact ((rowDims M K N wf).lhsIdx_val_of_single rfl _ _).trans hk)
  have er : (rowDims M K N wf).rhsIdx (ix2 p q) ((contrEquiv1 (rowDims M K N wf) K rfl rfl).symm k) = ix2 q k :=
    funext fun a => Fin.ext (by
      match a with
      | ⟨0, _⟩ => exact rhs_row wf _ _
      | ⟨1, _⟩ => exact ((rowDims M K N wf).rhsIdx_val_of_single rfl _ _).trans hk)
  rw [el, er]

/-- A MATRIX UNIT'S PRODUCT INTO ANY ACCUMULATOR, read at (p, q), for ANY dimension numbers of the row-by-row form. -/
theorem matmul_acc_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂)
    (acc : FVec Ideal ⟨2, ![M, N]⟩ .f32) (p : Fin M) (q : Fin N) :
    FloatOps.matmul d prec lhs rhs acc (ix2 p q) = acc (ix2 p q) + ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_apply]
  exact congrArg (acc (ix2 p q) + ·) (contr_sum wf lhs rhs p q)

/-- The same INTO A ZERO ACCUMULATOR: just the sum. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the row-by-row form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.RowDot

end
-- ==== Proof.LibColumns.lean ====
/-
  Columns: three layout operations read at an index, for any extents.

  A reduction over the columns that keeps its axis (`sum(axis = -1, keepdims = True)`) produces a vector that is then
  viewed as a column `[a, 1]`, and a column is broadcast back along the rows to `[a, b]`; and a column is set beside a
  block of `n` columns to make `n + 1` columns. Each is read here at an index `(row, column)` built from its two
  coordinates, so that the coordinates have literal types at a use site.
-/
import Idealize.ShloMosaic.Lib.ValueIdx
import Idealize.ShloMosaic.Lib.Pipeline.Value

namespace Cert.LibColumns

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `n` columns and one more column set side by side (`N = n + 1` columns): at `(r, q)` the block of `n` columns at
    `(r, q)` when `q < n`, the single column at row `r` when `q = n`. -/
theorem concat_col_apply {R n N : ℕ} (hN : N = n + 1) (A : (⟨2, ![R, n]⟩ : Shape).Idx → α) (B : (⟨2, ![R, 1]⟩ : Shape).Idx → α)
    (h : Shape.Concatenates [⟨2, ![R, n]⟩, ⟨2, ![R, 1]⟩] ⟨2, ![R, N]⟩ 1) (r : Fin R) (q : Fin N) :
    concatenate ⟨2, ![R, N]⟩ 1 [⟨⟨2, ![R, n]⟩, A⟩, ⟨⟨2, ![R, 1]⟩, B⟩] h (ix2 r q)
      = if hq : q.val < n then A (ix2 r ⟨q.val, hq⟩) else B (ix2 r (0 : Fin 1)) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r (0 : Fin 1))
      (fun b hb => match b, hb with | ⟨0, _⟩, _ => rfl | ⟨1, _⟩, hb => absurd rfl hb) ?_
    show 0 + n = q.val
    have := q.isLt; omega

end Cert.LibColumns
-- ==== Proof.LibConcatCols.lean ====
/-
  Two blocks of columns set side by side, read at an index, for any extents.

  A matrix [R, n] and a matrix [R, n'] joined along the column axis make a matrix [R, n + n']: at (r, q) it is the
  left matrix at (r, q) when q < n, and the right matrix at (r, q - n) otherwise. The index is built from its two
  coordinates, so that the coordinates have literal types at a use site.
-/
import Idealize.ShloMosaic.Lib.ValueIdx
import Idealize.ShloMosaic.Lib.Pipeline.Value

namespace Cert.LibConcatCols

open Idealize.ShloMosaic Idealize.ShloMosaic.ValueIdx

variable {α : Type}

/-- `n` columns and `n'` more columns side by side (`N = n + n'` columns): at `(r, q)` the left block at `(r, q)`
    when `q < n`, the right block at `(r, q - n)` otherwise. -/
theorem concat_cols_apply {R n n' N : ℕ} (hN : N = n + n') (A : (⟨2, ![R, n]⟩ : Shape).Idx → α)
    (B : (⟨2, ![R, n']⟩ : Shape).Idx → α)
    (h : Shape.Concatenates [⟨2, ![R, n]⟩, ⟨2, ![R, n']⟩] ⟨2, ![R, N]⟩ 1) (r : Fin R) (q : Fin N) :
    concatenate ⟨2, ![R, N]⟩ 1 [⟨⟨2, ![R, n]⟩, A⟩, ⟨⟨2, ![R, n']⟩, B⟩] h (ix2 r q)
      = if hq : q.val < n then A (ix2 r ⟨q.val, hq⟩)
        else B (ix2 r ⟨q.val - n, by have := q.isLt; omega⟩) := by
  split
  · next hq =>
    exact concatenate_pair_apply_left 1 A B h (ix2 r q) rfl (ix2 r ⟨q.val, hq⟩)
      (fun b => match b with | ⟨0, _⟩ => rfl | ⟨1, _⟩ => rfl)
  · next hq =>
    refine concatenate_pair_apply_right 1 A B h (ix2 r q) rfl rfl (ix2 r ⟨q.val - n, by have := q.isLt; omega⟩)
      (fun b hb => match b, hb with | ⟨0, _⟩, _ => rfl | ⟨1, _⟩, hb => absurd rfl hb) ?_
    show q.val - n + n = q.val
    omega

end Cert.LibConcatCols
-- ==== Proof.Payloads.lean ====
/-
  The body's payloads read at an index, over the extended reals.

  At the ideal values a change of float format is the identity, a matrix unit's product into a zero accumulator is the
  plain sum of products, and a lane reduction is a finite sum. So, entry by entry:
    the reset payload        is 0 everywhere;
    the accumulate payload   at (p, q) is acc (p, q) + ∑ over the 2048 features k of the block of x (p, k) · w (q, k);
    the final payload        at row p is ∑ over the 256 columns q of feature (p, q) · w2 (0, q), where feature is
                             max (acc₁ (p, q), 0) for q < 128 and max (acc₂ (p, q - 128), 0) for 128 ≤ q.
-/
import proofs.«151705_j38869454029100_2_alg».proof.Proof.Gen.KernelIdeal.Skeleton
import proofs.«151705_j38869454029100_2_alg».proof.Proof.LibRowDot
import proofs.«151705_j38869454029100_2_alg».proof.Proof.LibColumns
import proofs.«151705_j38869454029100_2_alg».proof.Proof.LibConcatCols
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- The reset payload of branch 1 is zero at every entry. -/
theorem reset1_apply (p : Fin 512) (q : Fin 128) : k0_pay1 (F := Ideal) (ix2 p q) = (0 : EReal) := by
  unfold k0_pay1
  rw [shapeCast_self]
  exact Ideal.ofBits_zero_f32

/-- The reset payload of branch 2 is zero at every entry. -/
theorem reset2_apply (p : Fin 512) (q : Fin 128) : k0_pay2 (F := Ideal) (ix2 p q) = (0 : EReal) := by
  unfold k0_pay2
  rw [shapeCast_self]
  exact Ideal.ofBits_zero_f32

/-- The accumulate payload of branch 1: what the accumulator held plus row p of the activation block against row q of
    the weight block. -/
theorem step1_apply (x : Vec Ideal S512x2048 .f32) (w : Vec Ideal S128x2048 .f32) (acc : Vec Ideal S512x128 .f32)
    (p : Fin 512) (q : Fin 128) :
    k0_pay3 x w acc (ix2 p q) = (acc (ix2 p q) + ∑ k : Fin 2048, x (ix2 p k) * w (ix2 q k) : EReal) := by
  unfold k0_pay3
  rw [shapeCast_self]
  refine (congrArg (fun z : EReal => acc (ix2 p q) + z)
    (Cert.RowDot.matmul_zero_apply dot_S512x2048_S128x2048_S512x128_1_1_0_0_n_n rfl rfl rfl rfl rfl rfl none
      (truncf .bf16 x bitsLt_bf16_f32) (truncf .bf16 w bitsLt_bf16_f32) p q)).trans ?_
  rfl

/-- The accumulate payload of branch 2. -/
theorem step2_apply (x : Vec Ideal S512x2048 .f32) (w : Vec Ideal S128x2048 .f32) (acc : Vec Ideal S512x128 .f32)
    (p : Fin 512) (q : Fin 128) :
    k0_pay4 x w acc (ix2 p q) = (acc (ix2 p q) + ∑ k : Fin 2048, x (ix2 p k) * w (ix2 q k) : EReal) := by
  unfold k0_pay4
  rw [shapeCast_self]
  refine (congrArg (fun z : EReal => acc (ix2 p q) + z)
    (Cert.RowDot.matmul_zero_apply dot_S512x2048_S128x2048_S512x128_1_1_0_0_n_n rfl rfl rfl rfl rfl rfl none
      (truncf .bf16 x bitsLt_bf16_f32) (truncf .bf16 w bitsLt_bf16_f32) p q)).trans ?_
  rfl

/-- The source index of a row sum: row p with the column k put back. -/
theorem lift_row {R C : ℕ} (h : (⟨2, ![R, C]⟩ : Shape).Reduces [1] ⟨1, ![R]⟩) (p : Fin R) (k : Fin C) :
    h.lift (ix1 p) k = ix2 p k :=
  funext fun c => Fin.ext (by
    match c with
    | ⟨0, _⟩ => rfl
    | ⟨1, _⟩ => rfl)

/-- The final payload: at row p, the 256 rectified features of the row against the second-layer weights. -/
theorem finish_apply (a b : Vec Ideal S512x128 .f32) (w2 : Vec Ideal S1x256 .f32) (p : Fin 512) (u : Fin 1) :
    k0_pay5 a b w2 (ix2 p u)
      = (∑ q : Fin 256, (if hq : q.val < 128 then max (a (ix2 p ⟨q.val, hq⟩)) 0
          else max (b (ix2 p ⟨q.val - 128, by have := q.isLt; omega⟩)) 0) * w2 (ix2 (0 : Fin 1) q) : EReal) := by
  unfold k0_pay5
  dsimp only
  refine (Cert.LibColumns.shapeCast_a_a1_apply _ shapeCasts_S512_S512x1 p u).trans ?_
  refine (Ideal.multiReduction_add_single _ 0x00000000#32 reduces_S512x256_S512 (.inl rfl) rfl (ix1 p)).trans ?_
  show ∑ k : Fin 256, mulf _ _ (reduces_S512x256_S512.lift (ix1 p) k) = _
  refine Finset.sum_congr rfl fun q _ => ?_
  rw [lift_row reduces_S512x256_S512 p q]
  show concatenate S512x256 1 _ _ (ix2 p q) * broadcastTo S512x256 w2 _ (ix2 p q) = _
  rw [broadcastTo_1b_ab_apply w2 broadcasts_S1x256_S512x256 p q,
    Cert.LibConcatCols.concat_cols_apply rfl _ _ concatenates_S512x128_S512x128_S512x256_d1 p q]
  by_cases hq : q.val < 128
  · rw [dif_pos hq, dif_pos hq]
    show max (a _) (Ideal.ofBits .f32 0x00000000#32) * _ = _
    rw [Ideal.ofBits_zero_f32]
  · rw [dif_neg hq, dif_neg hq]
    show max (b _) (Ideal.ofBits .f32 0x00000000#32) * _ = _
    rw [Ideal.ofBits_zero_f32]

end Cert.KernelIdeal.Payloads

end
-- ==== Proof.LibTileSum.lean ====
/-
  A sum over a contraction axis of extent K·T taken tile by tile: the sum over the K tiles of the sums over the T
  positions inside a tile is the sum over the whole axis, position T·s + j of the axis being position j of tile s.
  Only commutativity and associativity of the addition are used, so this holds in any commutative additive monoid —
  the extended reals with their infinities included. It is the law between a product accumulated over K contraction
  tiles of width T and the one product over the whole contraction axis.
-/
import Idealize.ShloMosaic.Lib.ValueIdx

open scoped BigOperators

namespace Cert.TileSum

/-- The axis `Fin (K * T)` is K tiles of T positions each: for any `f` on the axis' positions (given on the
    naturals), summing `f (T * s + j)` over the tiles `s < K` and the positions `j < T` inside a tile is summing
    `f` over the axis. -/
theorem sum_tiles {β : Type*} [AddCommMonoid β] (K T : ℕ) (f : ℕ → β) :
    ∑ s ∈ Finset.range K, ∑ j : Fin T, f (T * s + j.val) = ∑ r : Fin (K * T), f r.val := by
  rw [Finset.sum_range, ← Equiv.sum_comp (finProdFinEquiv (m := K) (n := T)), Fintype.sum_prod_type]
  refine Finset.sum_congr rfl fun s _ => Finset.sum_congr rfl fun j _ => ?_
  exact congrArg f (by rw [finProdFinEquiv_apply_val]; exact Nat.add_comm _ _)

end Cert.TileSum
-- ==== Proof.Spec.lean ====
/-
  The network's output as one function of its inputs, and the law between a contraction taken block by block and the
  contraction taken whole.

  The network (an evaluation network with two feature halves): for a batch row b,
      hidden₁ (b, h) = ∑ over the 40960 features r of x1 (b, r) · w_us (h, r)          (h < 128)
      hidden₂ (b, h) = ∑ over the 40960 features r of x2 (b, r) · w_them (h, r)
      feature (b, q) = max (hidden₁ (b, q), 0) for q < 128,  max (hidden₂ (b, q - 128), 0) for 128 ≤ q < 256
      output  (b)    = ∑ over q < 256 of feature (b, q) · w2 (0, q).
  Everything is over the extended reals; only the commutativity and associativity of the addition are used, so
  infinite entries change nothing.

  The kernel takes the 40960 features in 20 blocks of 2048. A matrix is extended by zero to all pairs of natural
  numbers (ext) so that a block's position 2048 · s + k can be written without carrying its bound; the 20 partial sums
  over the blocks add up to the whole contraction (hid_tiles).
-/
import Idealize.ShloMosaic.Lib.ValueIdx
import proofs.«151705_j38869454029100_2_alg».proof.Proof.LibTileSum

noncomputable section

open scoped BigOperators

namespace Cert.Nnue

open Idealize.ShloMosaic Idealize.ShloMosaic.ValueIdx

/-- A matrix read at any pair of naturals: its entry inside the matrix, zero outside. -/
def ext {R C : ℕ} (x : (⟨2, ![R, C]⟩ : Shape).Idx → EReal) (r col : ℕ) : EReal :=
  if h : r < R ∧ col < C then x (ix2 ⟨r, h.1⟩ ⟨col, h.2⟩) else 0

/-- Inside the matrix the extension is the matrix. -/
theorem ext_of_lt {R C : ℕ} (x : (⟨2, ![R, C]⟩ : Shape).Idx → EReal) (r col : ℕ) (hr : r < R) (hc : col < C) :
    ext x r col = x (ix2 ⟨r, hr⟩ ⟨col, hc⟩) := dif_pos ⟨hr, hc⟩

theorem ext_ix2 {R C : ℕ} (x : (⟨2, ![R, C]⟩ : Shape).Idx → EReal) (p : Fin R) (q : Fin C) :
    ext x p.val q.val = x (ix2 p q) := ext_of_lt x p.val q.val p.isLt q.isLt

/-- One hidden unit before the rectifier: row b of the activations against row h of the weights. -/
def hid (x : (⟨2, ![4096, 40960]⟩ : Shape).Idx → EReal) (w : (⟨2, ![128, 40960]⟩ : Shape).Idx → EReal)
    (b : Fin 4096) (h : Fin 128) : EReal :=
  ∑ r : Fin 40960, x (ix2 b r) * w (ix2 h r)

/-- The rectified hidden layer of both halves side by side: 256 features per batch row. -/
def feat (x1 x2 : (⟨2, ![4096, 40960]⟩ : Shape).Idx → EReal) (wu wt : (⟨2, ![128, 40960]⟩ : Shape).Idx → EReal)
    (b : Fin 4096) (q : Fin 256) : EReal :=
  if hq : q.val < 128 then max (hid x1 wu b ⟨q.val, hq⟩) 0
  else max (hid x2 wt b ⟨q.val - 128, by have := q.isLt; omega⟩) 0

/-- The output for batch row b. -/
def outAt (x1 x2 : (⟨2, ![4096, 40960]⟩ : Shape).Idx → EReal) (wu wt : (⟨2, ![128, 40960]⟩ : Shape).Idx → EReal)
    (w2 : (⟨2, ![1, 256]⟩ : Shape).Idx → EReal) (b : Fin 4096) : EReal :=
  ∑ q : Fin 256, feat x1 x2 wu wt b q * w2 (ix2 (0 : Fin 1) q)

/-- The output array [4096, 1]. -/
def out (x1 x2 : (⟨2, ![4096, 40960]⟩ : Shape).Idx → EReal) (wu wt : (⟨2, ![128, 40960]⟩ : Shape).Idx → EReal)
    (w2 : (⟨2, ![1, 256]⟩ : Shape).Idx → EReal) : (⟨2, ![4096, 1]⟩ : Shape).Idx → EReal :=
  fun j => outAt x1 x2 wu wt w2 ⟨(j 0).val, idx2_lt0 j⟩

/-- THE TILE LAW: the 20 partial contractions over feature blocks of width 2048 add up to the whole contraction. -/
theorem hid_tiles (x : (⟨2, ![4096, 40960]⟩ : Shape).Idx → EReal) (w : (⟨2, ![128, 40960]⟩ : Shape).Idx → EReal)
    (b : Fin 4096) (h : Fin 128) :
    ∑ s ∈ Finset.range 20, ∑ k : Fin 2048, ext x b.val (2048 * s + k.val) * ext w h.val (2048 * s + k.val) = hid x w b h := by
  rw [Cert.TileSum.sum_tiles 20 2048 (fun r => ext x b.val r * ext w h.val r), ← Finset.sum_range (fun r => ext x b.val r * ext w h.val r)]
  show ∑ r ∈ Finset.range 40960, ext x b.val r * ext w h.val r = _
  rw [Finset.sum_range]
  exact Finset.sum_congr rfl fun r _ => by rw [ext_ix2, ext_ix2]

end Cert.Nnue

end
-- ==== Proof.Blocks.lean ====
/-
  Where each window's block sits in its array.

  The grid has 8 · 20 points; point t is batch tile t / 20 and feature block t % 20. The printed index maps, decided
  once over the 160 points, place the blocks:
    the activations x1, x2  [4096, 40960] : block (t / 20, t % 20) of [512, 2048]   — rows 512·(t/20) + p, features 2048·(t%20) + k;
    the weights w_us, w_them [128, 40960] : block (0, t % 20) of [128, 2048]        — row q, features 2048·(t%20) + k;
    the second layer w2      [1, 256]     : the whole array at every point;
    the output               [4096, 1]    : block (t / 20, 0) of [512, 1]           — rows 512·(t/20) + p.
  A block's element at coordinate y sits in the array at block index · block size + y on each axis. The input blocks
  are read here through the zero extension of their arrays, so that the position needs no bound.
-/
import proofs.«151705_j38869454029100_2_alg».proof.Proof.Gen.KernelIdeal.Frame
import proofs.«151705_j38869454029100_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.Nnue

variable (m : (ℓ : Loc nD τ sig) → Buf (Elt Ideal) ℓ)

/-- The five argument arrays the kernel reads, as the launch finds them, over the extended reals. -/
abbrev argX1 (c : Dev nD) : (⟨2, ![4096, 40960]⟩ : Shape).Idx → EReal := m ((c : Thread nD τ).loc main_arg0)
abbrev argX2 (c : Dev nD) : (⟨2, ![4096, 40960]⟩ : Shape).Idx → EReal := m ((c : Thread nD τ).loc main_arg1)
abbrev argWU (c : Dev nD) : (⟨2, ![128, 40960]⟩ : Shape).Idx → EReal := m ((c : Thread nD τ).loc main_arg3)
abbrev argWT (c : Dev nD) : (⟨2, ![128, 40960]⟩ : Shape).Idx → EReal := m ((c : Thread nD τ).loc main_arg4)
abbrev argW2 (c : Dev nD) : (⟨2, ![1, 256]⟩ : Shape).Idx → EReal := m ((c : Thread nD τ).loc main_arg5)

/-- The printed index maps at point t: batch tile t / 20, feature block t % 20. -/
theorem idx_facts : ∀ t : Fin cfg0.N,
    win0_0.index t (0 : Fin 2) = t.val / 20 ∧ win0_0.index t (1 : Fin 2) = t.val % 20
    ∧ win0_1.index t (0 : Fin 2) = t.val / 20 ∧ win0_1.index t (1 : Fin 2) = t.val % 20
    ∧ win0_2.index t (0 : Fin 2) = 0 ∧ win0_2.index t (1 : Fin 2) = t.val % 20
    ∧ win0_3.index t (0 : Fin 2) = 0 ∧ win0_3.index t (1 : Fin 2) = t.val % 20
    ∧ win0_4.index t (0 : Fin 2) = 0 ∧ win0_4.index t (1 : Fin 2) = 0
    ∧ win0_5.index t (0 : Fin 2) = t.val / 20 ∧ win0_5.index t (1 : Fin 2) = 0 :=
  (by decide +kernel : ∀ t : Fin grid0.N, _)

theorem tile_lt (t : Fin cfg0.N) : t.val / 20 < 8 := by
  have h : t.val < 160 := lt_of_lt_of_eq t.isLt (show cfg0.N = 160 from N_0)
  omega

/-- The block of x1 at point t, entry (p, k): row 512·(t/20) + p, feature 2048·(t%20) + k of x1. -/
theorem x1_block (c : Dev nD) (t : Fin cfg0.N) (p : Fin 512) (k : Fin 2048) :
    (iblk m c 0 t : Vec Ideal S512x2048 .f32) (ix2 p k)
      = ext (argX1 m c) (512 * (t.val / 20) + p.val) (2048 * (t.val % 20) + k.val) := by
  obtain ⟨e0, e1, -⟩ := idx_facts t
  have ht := tile_lt t
  rw [ext_of_lt _ _ _ (by omega) (by omega)]
  unfold iblk
  rw [View.read_apply]
  show m ((c : Thread nD τ).loc main_arg0) _ = m ((c : Thread nD τ).loc main_arg0) _
  refine congrArg (m ((c : Thread nD τ).loc main_arg0)) ?_
  funext a
  apply Fin.ext
  match a with
  | ⟨0, _⟩ => show win0_0.index t (0 : Fin 2) * 512 + 1 * p.val = 512 * (t.val / 20) + p.val; rw [e0]; omega
  | ⟨1, _⟩ => show win0_0.index t (1 : Fin 2) * 2048 + 1 * k.val = 2048 * (t.val % 20) + k.val; rw [e1]; omega

/-- The block of x2 at point t. -/
theorem x2_block (c : Dev nD) (t : Fin cfg0.N) (p : Fin 512) (k : Fin 2048) :
    (iblk m c 1 t : Vec Ideal S512x2048 .f32) (ix2 p k)
      = ext (argX2 m c) (512 * (t.val / 20) + p.val) (2048 * (t.val % 20) + k.val) := by
  obtain ⟨-, -, e0, e1, -⟩ := idx_facts t
  have ht := tile_lt t
  rw [ext_of_lt _ _ _ (by omega) (by omega)]
  unfold iblk
  rw [View.read_apply]
  show m ((c : Thread nD τ).loc main_arg1) _ = m ((c : Thread nD τ).loc main_arg1) _
  refine congrArg (m ((c : Thread nD τ).loc main_arg1)) ?_
  funext a
  apply Fin.ext
  match a with
  | ⟨0, _⟩ => show win0_1.index t (0 : Fin 2) * 512 + 1 * p.val = 512 * (t.val / 20) + p.val; rw [e0]; omega
  | ⟨1, _⟩ => show win0_1.index t (1 : Fin 2) * 2048 + 1 * k.val = 2048 * (t.val % 20) + k.val; rw [e1]; omega

/-- The block of w_us at point t, entry (q, k): row q, feature 2048·(t%20) + k of w_us. -/
theorem wu_block (c : Dev nD) (t : Fin cfg0.N) (q : Fin 128) (k : Fin 2048) :
    (iblk m c 2 t : Vec Ideal S128x2048 .f32) (ix2 q k)
      = ext (argWU m c) q.val (2048 * (t.val % 20) + k.val) := by
  obtain ⟨-, -, -, -, e0, e1, -⟩ := idx_facts t
  rw [ext_of_lt _ _ _ q.isLt (by omega)]
  unfold iblk
  rw [View.read_apply]
  show m ((c : Thread nD τ).loc main_arg3) _ = m ((c : Thread nD τ).loc main_arg3) _
  refine congrArg (m ((c : Thread nD τ).loc main_arg3)) ?_
  funext a
  apply Fin.ext
  match a with
  | ⟨0, _⟩ => show win0_2.index t (0 : Fin 2) * 128 + 1 * q.val = q.val; rw [e0]; omega
  | ⟨1, _⟩ => show win0_2.index t (1 : Fin 2) * 2048 + 1 * k.val = 2048 * (t.val % 20) + k.val; rw [e1]; omega

/-- The block of w_them at point t. -/
theorem wt_block (c : Dev nD) (t : Fin cfg0.N) (q : Fin 128) (k : Fin 2048) :
    (iblk m c 3 t : Vec Ideal S128x2048 .f32) (ix2 q k)
      = ext (argWT m c) q.val (2048 * (t.val % 20) + k.val) := by
  obtain ⟨-, -, -, -, -, -, e0, e1, -⟩ := idx_facts t
  rw [ext_of_lt _ _ _ q.isLt (by omega)]
  unfold iblk
  rw [View.read_apply]
  show m ((c : Thread nD τ).loc main_arg4) _ = m ((c : Thread nD τ).loc main_arg4) _
  refine congrArg (m ((c : Thread nD τ).loc main_arg4)) ?_
  funext a
  apply Fin.ext
  match a with
  | ⟨0, _⟩ => show win0_3.index t (0 : Fin 2) * 128 + 1 * q.val = q.val; rw [e0]; omega
  | ⟨1, _⟩ => show win0_3.index t (1 : Fin 2) * 2048 + 1 * k.val = 2048 * (t.val % 20) + k.val; rw [e1]; omega

/-- The block of w2 at any point is w2 itself. -/
theorem w2_block (c : Dev nD) (t : Fin cfg0.N) (u : Fin 1) (q : Fin 256) :
    (iblk m c 4 t : Vec Ideal S1x256 .f32) (ix2 u q) = argW2 m c (ix2 u q) := by
  obtain ⟨-, -, -, -, -, -, -, -, e0, e1, -⟩ := idx_facts t
  unfold iblk
  rw [View.read_apply]
  show m ((c : Thread nD τ).loc main_arg5) _ = m ((c : Thread nD τ).loc main_arg5) _
  refine congrArg (m ((c : Thread nD τ).loc main_arg5)) ?_
  funext a
  apply Fin.ext
  match a with
  | ⟨0, _⟩ => show win0_4.index t (0 : Fin 2) * 1 + 1 * u.val = u.val; rw [e0]; omega
  | ⟨1, _⟩ => show win0_4.index t (1 : Fin 2) * 256 + 1 * q.val = q.val; rw [e1]; omega

end Cert.KernelIdeal.Blocks

end
-- ==== Proof.Accum.lean ====
/-
  What the two accumulators hold after each grid point, and after the last feature block of a batch tile.

  The grid point t works on batch tile t / 20 and feature block t % 20. The generated value leg states each carried
  accumulator after point t as the fold, from the tile's first point 20·(t/20), of the per-point step. Read entry by
  entry that step is "add this point's partial contraction" (the accumulate payload on the point's blocks), started
  from zero at the tile's first point. So after point t the accumulator holds the sum of the partial contractions of
  the feature blocks 0 … t % 20, and after the last block (t % 20 = 19) the sum of all 20, which is the contraction over
  all 40960 features: the hidden unit of the specification.
-/
import proofs.«151705_j38869454029100_2_alg».proof.Proof.Gen.KernelIdeal.Value
import proofs.«151705_j38869454029100_2_alg».proof.Proof.Pieces
import proofs.«151705_j38869454029100_2_alg».proof.Proof.Payloads
import proofs.«151705_j38869454029100_2_alg».proof.Proof.Blocks
import Idealize.ShloMosaic.Lib.Pipeline.Value

noncomputable section

open scoped BigOperators

open Idealize.ShloMosaic Idealize.ShloMosaic.TcCoe Idealize.SL.Sem Idealize.ShloMosaic.ValueIdx

namespace Cert.KernelIdeal.Accum

open Cert.KernelIdeal Cert.KernelIdeal.Gen Cert.Nnue Cert.KernelIdeal.Blocks

variable (m : (ℓ : Loc nD τ sig) → Buf (Elt Ideal) ℓ)

/-- What point n adds to accumulator 1 at entry i: row 512·(n/20) + i₀ of the activations against row i₁ of the
    weights, over feature block n % 20. -/
def add1 (c : Dev nD) (n : ℕ) (i : S512x128.Idx) : EReal :=
  ∑ k : Fin 2048, ext (argX1 m c) (512 * (n / 20) + (i 0).val) (2048 * (n % 20) + k.val)
    * ext (argWU m c) (i 1).val (2048 * (n % 20) + k.val)

/-- The accumulate payload of branch 1 at point t, on the point's blocks. -/
theorem step1_at (c : Dev nD) (t : Fin cfg0.N) (acc : Vec Ideal S512x128 .f32) (i : S512x128.Idx) :
    k0_pay3 (iblk m c 0 t) (iblk m c 2 t) acc i = (acc i + add1 m c t.val i : EReal) := by
  obtain ⟨p, q, rfl⟩ : ∃ (p : Fin 512) (q : Fin 128), i = ix2 p q := ⟨i 0, i 1, eq_ix2 i⟩
  refine (Payloads.step1_apply (iblk m c 0 t) (iblk m c 2 t) acc p q).trans ?_
  refine congrArg (fun z : EReal => acc (ix2 p q) + z) ?_
  unfold add1
  refine Finset.sum_congr rfl fun k _ => ?_
  rw [x1_block m c t p k, wu_block m c t q k]

/-- At the first feature block of a batch tile accumulator 1 restarts from zero. -/
theorem sc1_reset (c : Dev nD) (n : ℕ) (hb : n < cfg0.N) (h0 : n % 20 = 0) (junk : Vec Ideal S512x128 .f32)
    (i : S512x128.Idx) : Value.scAt0_0 m c n hb junk i = (0 + add1 m c n i : EReal) := by
  have h1 : ¬n % 20 = 19 := by omega
  unfold Value.scAt0_0
  rw [dif_pos h0, dif_neg h1, Pieces.acc1_A]
  refine (step1_at m c ⟨n, hb⟩ (k0_pay1 (F := Ideal)) i).trans ?_
  refine congrArg (fun z : EReal => z + add1 m c n i) ?_
  obtain ⟨p, q, rfl⟩ : ∃ (p : Fin 512) (q : Fin 128), i = ix2 p q := ⟨i 0, i 1, eq_ix2 i⟩
  exact Payloads.reset1_apply p q

/-- At every later feature block it adds the point's contribution to what the point before left. -/
theorem sc1_step (c : Dev nD) (n : ℕ) (hb : n < cfg0.N) (h0 : ¬n % 20 = 0) (acc : Vec Ideal S512x128 .f32)
    (i : S512x128.Idx) : Value.scAt0_0 m c n hb acc i = (acc i + add1 m c n i : EReal) := by
  unfold Value.scAt0_0
  rw [dif_neg h0]
  by_cases h1 : n % 20 = 19
  · rw [dif_pos h1, Pieces.acc1_C]
    exact step1_at m c ⟨n, hb⟩ acc i
  · rw [dif_neg h1, Pieces.acc1_B]
    exact step1_at m c ⟨n, hb⟩ acc i

/-- Accumulator 1 after point t: the contributions of the feature blocks 0 … t % 20 of t's batch tile. -/
theorem acc1_at (c : Dev nD) (t : Fin cfg0.N) (i : S512x128.Idx) :
    (outsAt0 m c t.val t.isLt).2.1 i
      = (0 + ∑ s ∈ Finset.range (t.val % 20 + 1), add1 m c (20 * (t.val / 20) + s) i : EReal) := by
  rw [Value.soutsAt0_0_eq m c t]
  exact Pipeline.accAt_add_apply (ι := S512x128.Idx) (β := EReal) _ _ (fun _ => 0) (add1 m c) (20 * (t.val / 20)) 19
    (fun h i => sc1_reset m c _ h (Nat.mul_mod_right 20 _) _ i)
    (fun n h acc i hlo hhi => sc1_step m c n h (by omega) acc i) (t.val % 20) (by omega) _ i

/-- After the LAST feature block of a batch tile accumulator 1 holds the whole hidden unit (the tile law). -/
theorem acc1_final (c : Dev nD) (t : Fin cfg0.N) (h19 : t.val % 20 = 19) (p : Fin 512) (q : Fin 128) (b : Fin 4096)
    (hb : b.val = 512 * (t.val / 20) + p.val) :
    (outsAt0 m c t.val t.isLt).2.1 (ix2 p q) = hid (argX1 m c) (argWU m c) b q := by
  rw [acc1_at m c t (ix2 p q), zero_add, h19, ← hid_tiles]
  refine Finset.sum_congr rfl fun s hs => ?_
  have hs' : s < 20 := Finset.mem_range.mp hs
  unfold add1
  refine Finset.sum_congr rfl fun k _ => ?_
  have e1 : (20 * (t.val / 20) + s) / 20 = t.val / 20 := by omega
  have e2 : (20 * (t.val / 20) + s) % 20 = s := by omega
  rw [e1, e2, hb]

/-- What point n adds to accumulator 2 at entry i: row 512·(n/20) + i₀ of the activations against row i₁ of the
    weights, over feature block n % 20. -/
def add2 (c : Dev nD) (n : ℕ) (i : S512x128.Idx) : EReal :=
  ∑ k : Fin 2048, ext (argX2 m c) (512 * (n / 20) + (i 0).val) (2048 * (n % 20) + k.val)
    * ext (argWT m c) (i 1).val (2048 * (n % 20) + k.val)

/-- The accumulate payload of branch 2 at point t, on the point's blocks. -/
theorem step2_at (c : Dev nD) (t : Fin cfg0.N) (acc : Vec Ideal S512x128 .f32) (i : S512x128.Idx) :
    k0_pay4 (iblk m c 1 t) (iblk m c 3 t) acc i = (acc i + add2 m c t.val i : EReal) := by
  obtain ⟨p, q, rfl⟩ : ∃ (p : Fin 512) (q : Fin 128), i = ix2 p q := ⟨i 0, i 1, eq_ix2 i⟩
  refine (Payloads.step2_apply (iblk m c 1 t) (iblk m c 3 t) acc p q).trans ?_
  refine congrArg (fun z : EReal => acc (ix2 p q) + z) ?_
  unfold add2
  refine Finset.sum_congr rfl fun k _ => ?_
  rw [x2_block m c t p k, wt_block m c t q k]

/-- At the first feature block of a batch tile accumulator 2 restarts from zero. -/
theorem sc2_reset (c : Dev nD) (n : ℕ) (hb : n < cfg0.N) (h0 : n % 20 = 0) (junk : Vec Ideal S512x128 .f32)
    (i : S512x128.Idx) : Value.scAt0_1 m c n hb junk i = (0 + add2 m c n i : EReal) := by
  have h1 : ¬n % 20 = 19 := by omega
  unfold Value.scAt0_1
  rw [dif_pos h0, dif_neg h1, Pieces.acc2_A]
  refine (step2_at m c ⟨n, hb⟩ (k0_pay2 (F := Ideal)) i).trans ?_
  refine congrArg (fun z : EReal => z + add2 m c n i) ?_
  obtain ⟨p, q, rfl⟩ : ∃ (p : Fin 512) (q : Fin 128), i = ix2 p q := ⟨i 0, i 1, eq_ix2 i⟩
  exact Payloads.reset2_apply p q

/-- At every later feature block it adds the point's contribution to what the point before left. -/
theorem sc2_step (c : Dev nD) (n : ℕ) (hb : n < cfg0.N) (h0 : ¬n % 20 = 0) (acc : Vec Ideal S512x128 .f32)
    (i : S512x128.Idx) : Value.scAt0_1 m c n hb acc i = (acc i + add2 m c n i : EReal) := by
  unfold Value.scAt0_1
  rw [dif_neg h0]
  by_cases h1 : n % 20 = 19
  · rw [dif_pos h1, Pieces.acc2_C]
    exact step2_at m c ⟨n, hb⟩ acc i
  · rw [dif_neg h1, Pieces.acc2_B]
    exact step2_at m c ⟨n, hb⟩ acc i

/-- Accumulator 2 after point t: the contributions of the feature blocks 0 … t % 20 of t's batch tile. -/
theorem acc2_at (c : Dev nD) (t : Fin cfg0.N) (i : S512x128.Idx) :
    (outsAt0 m c t.val t.isLt).2.2 i
      = (0 + ∑ s ∈ Finset.range (t.val % 20 + 1), add2 m c (20 * (t.val / 20) + s) i : EReal) := by
  rw [Value.soutsAt0_1_eq m c t]
  exact Pipeline.accAt_add_apply (ι := S512x128.Idx) (β := EReal) _ _ (fun _ => 0) (add2 m c) (20 * (t.val / 20)) 19
    (fun h i => sc2_reset m c _ h (Nat.mul_mod_right 20 _) _ i)
    (fun n h acc i hlo hhi => sc2_step m c n h (by omega) acc i) (t.val % 20) (by omega) _ i

/-- After the LAST feature block of a batch tile accumulator 2 holds the whole hidden unit (the tile law). -/
theorem acc2_final (c : Dev nD) (t : Fin cfg0.N) (h19 : t.val % 20 = 19) (p : Fin 512) (q : Fin 128) (b : Fin 4096)
    (hb : b.val = 512 * (t.val / 20) + p.val) :
    (outsAt0 m c t.val t.isLt).2.2 (ix2 p q) = hid (argX2 m c) (argWT m c) b q := by
  rw [acc2_at m c t (ix2 p q), zero_add, h19, ← hid_tiles]
  refine Finset.sum_congr rfl fun s hs => ?_
  have hs' : s < 20 := Finset.mem_range.mp hs
  unfold add2
  refine Finset.sum_congr rfl fun k _ => ?_
  have e1 : (20 * (t.val / 20) + s) / 20 = t.val / 20 := by omega
  have e2 : (20 * (t.val / 20) + s) % 20 = s := by omega
  rw [e1, e2, hb]

end Cert.KernelIdeal.Accum

end
-- ==== Proof.Final.lean ====
/-
  The kernel's result array is the specification's output.

  The output window's block of a batch tile is stored, and written back to the array, only at the tile's last feature
  block (points t with t % 20 = 19). There the body computes it from the two accumulators it has just completed —
  each the whole hidden unit of its half (the tile law) — and the second-layer weights: row p of the block is the
  specification's output for batch row 512·(t/20) + p. The 8 written-back blocks [512, 1] tile the array [4096, 1], so
  the array after the run is the specification's output everywhere.
-/
import proofs.«151705_j38869454029100_2_alg».proof.Proof.Accum
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.Nnue Cert.KernelIdeal.Blocks Cert.KernelIdeal.Accum

variable (m : (ℓ : Loc nD τ sig) → Buf (Elt Ideal) ℓ) (ρ : Dev nD → PrngReg)

/-- The specification's output of the argument arrays as the launch finds them: what the result array ends holding. -/
abbrev result (c : Dev nD) : Buf (Elt Ideal) ((c : Thread nD τ).loc main_v0) :=
  out (argX1 m c) (argX2 m c) (argWU m c) (argWT m c) (argW2 m c)

/-- At a tile's last feature block the body leaves, in accumulator 1, the accumulate payload over what the point before left. -/
theorem last_acc1 (c : Dev nD) (t : Fin cfg0.N) (h0 : ¬t.val % 20 = 0) (h19 : t.val % 20 = 19) :
    (outsAt0 m c t.val t.isLt).2.1 = k0_pay3 (iblk m c 0 t) (iblk m c 2 t) (outsAt0 m c (t.val - 1) (Nat.lt_of_le_of_lt (Nat.sub_le _ _) t.isLt)).2.1 := by
  rw [outsAt0_C m c t h0 h19]
  exact Pieces.acc1_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- … in accumulator 2 likewise, -/
theorem last_acc2 (c : Dev nD) (t : Fin cfg0.N) (h0 : ¬t.val % 20 = 0) (h19 : t.val % 20 = 19) :
    (outsAt0 m c t.val t.isLt).2.2 = k0_pay4 (iblk m c 1 t) (iblk m c 3 t) (outsAt0 m c (t.val - 1) (Nat.lt_of_le_of_lt (Nat.sub_le _ _) t.isLt)).2.2 := by
  rw [outsAt0_C m c t h0 h19]
  exact Pieces.acc2_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- … and in the output block the final payload of those two accumulators and the second-layer weights. -/
theorem last_out (c : Dev nD) (t : Fin cfg0.N) (h0 : ¬t.val % 20 = 0) (h19 : t.val % 20 = 19) :
    (outsAt0 m c t.val t.isLt).1
      = k0_pay5 (outsAt0 m c t.val t.isLt).2.1 (outsAt0 m c t.val t.isLt).2.2 (iblk m c 4 t) := by
  rw [last_acc1 m c t h0 h19, last_acc2 m c t h0 h19, outsAt0_C m c t h0 h19]
  exact Pieces.out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h19) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2

/-- At a tile's last feature block, row p of the output block is the specification's output for the batch row
    512·(t/20) + p. -/
theorem out_at (c : Dev nD) (t : Fin cfg0.N) (h19 : t.val % 20 = 19) (p : Fin 512) (u : Fin 1) (b : Fin 4096)
    (hb : b.val = 512 * (t.val / 20) + p.val) :
    (outsAt0 m c t.val t.isLt).1 (ix2 p u)
      = outAt (argX1 m c) (argX2 m c) (argWU m c) (argWT m c) (argW2 m c) b := by
  have h0 : ¬t.val % 20 = 0 := by omega
  rw [last_out m c t h0 h19]
  refine (Payloads.finish_apply (outsAt0 m c t.val t.isLt).2.1 (outsAt0 m c t.val t.isLt).2.2 (iblk m c 4 t) p u).trans ?_
  unfold outAt
  refine Finset.sum_congr rfl fun q _ => ?_
  rw [w2_block m c t (0 : Fin 1) q]
  refine congrArg (fun z : EReal => z * argW2 m c (ix2 (0 : Fin 1) q)) ?_
  unfold feat
  by_cases hq : q.val < 128
  · rw [dif_pos hq, dif_pos hq, acc1_final m c t h19 p ⟨q.val, hq⟩ b hb]
  · rw [dif_neg hq, dif_neg hq, acc2_final m c t h19 p ⟨q.val - 128, by have := q.isLt; omega⟩ b hb]

/-- An index of the result array is in point t's block iff each coordinate is in the block's range on its axis. -/
theorem mem_blk (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v0).slice (win0_5.rect t)).set ↔ _
  rw [View.set_slice_whole, Rect.mem_set_unit]
  exact Iff.rfl

/-- What a writing-back point writes back is its block of the specification's output. -/
theorem flushed_eq (c : Dev nD) (t : Fin cfg0.N) (hf : (cfg0.win 5).flush t = true) :
    (dats m 0 c).flushed 5 t = ((cfg0.win 5).blk t).view.read (Elt Ideal) (result m c) := by
  have h19 : t.val % 20 = 19 := (flush0_5 t).mp hf
  have ht := tile_lt t
  obtain ⟨-, -, -, -, -, -, -, -, -, -, e0, e1⟩ := idx_facts t
  rw [Value.flushed5 m c t]
  have key : ∀ y : S512x1.Idx, (outsAt0 m c t.val t.isLt).1 y = result m c (((cfg0.win 5).blk t).view.emb y) := by
    intro y
    obtain ⟨p, u, rfl⟩ : ∃ (p : Fin 512) (u : Fin 1), y = ix2 p u := ⟨y 0, y 1, eq_ix2 y⟩
    rw [out_at m c t h19 p u ⟨512 * (t.val / 20) + p.val, by omega⟩ rfl]
    show _ = outAt _ _ _ _ _ _
    refine congrArg (outAt (argX1 m c) (argX2 m c) (argWU m c) (argWT m c) (argW2 m c)) (Fin.ext ?_)
    show 512 * (t.val / 20) + p.val = win0_5.index t (0 : Fin 2) * 512 + 1 * p.val
    rw [e0]; omega
  exact funext key

/-- Every index of the result array is in the block some point writes back: row r in the block of batch tile r / 512,
    written back at that tile's last feature block. -/
theorem cover (c : Dev nD) (i : S4096x1.Idx) :
    ∃ t : Fin cfg0.N, (cfg0.win 5).flush t = true ∧ i ∈ ((cfg0.win 5).blk t).view.set := by
  have h0 : (i 0).val < 4096 := idx2_lt0 i
  have h1 : (i 1).val < 1 := idx2_lt1 i
  have hN : cfg0.N = 160 := N_0
  refine ⟨⟨20 * ((i 0).val / 512) + 19, by rw [hN]; omega⟩, (flush0_5 _).mpr (by show (20 * ((i 0).val / 512) + 19) % 20 = 19; omega), ?_⟩
  rw [mem_blk]
  obtain ⟨-, -, -, -, -, -, -, -, -, -, e0, e1⟩ := idx_facts (⟨20 * ((i 0).val / 512) + 19, by rw [hN]; omega⟩ : Fin cfg0.N)
  intro a
  match a with
  | ⟨0, _⟩ =>
    show win0_5.index _ (0 : Fin 2) * 512 ≤ (i 0).val ∧ (i 0).val < win0_5.index _ (0 : Fin 2) * 512 + 512
    rw [e0]
    show (20 * ((i 0).val / 512) + 19) / 20 * 512 ≤ (i 0).val ∧ (i 0).val < (20 * ((i 0).val / 512) + 19) / 20 * 512 + 512
    omega
  | ⟨1, _⟩ =>
    show win0_5.index _ (1 : Fin 2) * 1 ≤ (i 1).val ∧ (i 1).val < win0_5.index _ (1 : Fin 2) * 1 + 1
    rw [e1]; omega

/-- So the result array ends holding the specification's output. -/
theorem final (c : Dev nD) : (dats m 0 c).arrAt 5 cfg0.N = result m c :=
  (dats m 0 c).arrAt_eq_of_cover 5 (result m c) (flushed_eq m c) (cover c)

/-- The run, read: the result array at the specification's output of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.RefValue.lean ====
/-
  The reference computes the specification.

  Read one operation at a time at the ideal values: each einsum is the sum over its contracted axis of the products,
  relu is the maximum with zero, the concatenation picks the first half for columns below 128 and the second half
  above, and the last einsum against the single row of w2 is the sum over the 256 columns. That is the specification's
  output entry by entry.
-/
import proofs.«151705_j38869454029100_2_alg».proof.Proof.Gen.ReferenceIdeal.Read
import proofs.«151705_j38869454029100_2_alg».proof.Proof.Spec
import proofs.«151705_j38869454029100_2_alg».proof.Proof.LibConcatCols
import Idealize.ShloMosaic.PureOps.Ideal.Laws

noncomputable section

open scoped BigOperators

open Idealize.ShloMosaic Idealize.ShloMosaic.ValueIdx

namespace Cert.ReferenceIdeal.RefValue

open Cert.ReferenceIdeal Cert.ReferenceIdeal.Gen Cert.ReferenceIdeal.Read Cert.Nnue

/-- The first half's rectified hidden unit. -/
theorem relu1_apply (x : (⟨S4096x40960, .f32⟩ : BufTy).Contents (Elt Ideal)) (w : (⟨S128x40960, .f32⟩ : BufTy).Contents (Elt Ideal))
    (b : Fin 4096) (h : Fin 128) : val_main_v1 (F := Ideal) x w (ix2 b h) = max (hid x w b h) 0 := by
  rw [val_main_v1_apply, val_main_v0_apply, val_main_call0_v0_apply, val_main_call0_cst_apply]
  show max (∑ k : Fin 40960, x (lidx_main_v0 (ix2 b h) k) * w (ridx_main_v0 (ix2 b h) k)) (Ideal.ofBits .f32 0x00000000#32) = _
  rw [Ideal.ofBits_zero_f32]
  have el : ∀ k, lidx_main_v0 (ix2 b h) k = ix2 b k := fun k => funext fun a => Fin.ext (by
    match a with
    | ⟨0, _⟩ => rfl
    | ⟨1, _⟩ => rfl)
  have er : ∀ k, ridx_main_v0 (ix2 b h) k = ix2 h k := fun k => funext fun a => Fin.ext (by
    match a with
    | ⟨0, _⟩ => rfl
    | ⟨1, _⟩ => rfl)
  unfold hid
  exact congrArg (fun z : EReal => max z 0) (Finset.sum_congr rfl fun k _ => by rw [el, er])

/-- The second half's rectified hidden unit. -/
theorem relu2_apply (x : (⟨S4096x40960, .f32⟩ : BufTy).Contents (Elt Ideal)) (w : (⟨S128x40960, .f32⟩ : BufTy).Contents (Elt Ideal))
    (b : Fin 4096) (h : Fin 128) : val_main_v3 (F := Ideal) x w (ix2 b h) = max (hid x w b h) 0 := by
  rw [val_main_v3_apply, val_main_v2_apply, val_main_call1_v0_apply, val_main_call1_cst_apply]
  show max (∑ k : Fin 40960, x (lidx_main_v2 (ix2 b h) k) * w (ridx_main_v2 (ix2 b h) k)) (Ideal.ofBits .f32 0x00000000#32) = _
  rw [Ideal.ofBits_zero_f32]
  have el : ∀ k, lidx_main_v2 (ix2 b h) k = ix2 b k := fun k => funext fun a => Fin.ext (by
    match a with
    | ⟨0, _⟩ => rfl
    | ⟨1, _⟩ => rfl)
  have er : ∀ k, ridx_main_v2 (ix2 b h) k = ix2 h k := fun k => funext fun a => Fin.ext (by
    match a with
    | ⟨0, _⟩ => rfl
    | ⟨1, _⟩ => rfl)
  unfold hid
  exact congrArg (fun z : EReal => max z 0) (Finset.sum_congr rfl fun k _ => by rw [el, er])

/-- The reference's result is the specification's output. -/
theorem ref_eq (x0 x1 : (⟨S4096x40960, .f32⟩ : BufTy).Contents (Elt Ideal)) (x3 x4 : (⟨S128x40960, .f32⟩ : BufTy).Contents (Elt Ideal))
    (x5 : (⟨S1x256, .f32⟩ : BufTy).Contents (Elt Ideal)) :
    val_main_v5 (F := Ideal) x0 x1 x3 x4 x5 = out x0 x1 x3 x4 x5 := by
  funext j
  obtain ⟨b, u, rfl⟩ : ∃ (b : Fin 4096) (u : Fin 1), j = ix2 b u := ⟨j 0, j 1, eq_ix2 j⟩
  rw [val_main_v5_apply]
  show _ = outAt x0 x1 x3 x4 x5 b
  unfold outAt
  refine Finset.sum_congr rfl fun q _ => ?_
  have el : lidx_main_v5 (ix2 b u) q = ix2 b q := funext fun a => Fin.ext (by
    match a with
    | ⟨0, _⟩ => rfl
    | ⟨1, _⟩ => rfl)
  have er : ridx_main_v5 (ix2 b u) q = ix2 (0 : Fin 1) q := funext fun a => Fin.ext (by
    match a with
    | ⟨0, _⟩ => show u.val = 0; omega
    | ⟨1, _⟩ => rfl)
  rw [el, er]
  refine congrArg (fun z : EReal => z * x5 (ix2 (0 : Fin 1) q)) ?_
  unfold val_main_v4 feat
  rw [Cert.LibConcatCols.concat_cols_apply rfl _ _ concatenates_S4096x128_S4096x128_S4096x256_d1 b q]
  by_cases hq : q.val < 128
  · rw [dif_pos hq, dif_pos hq, relu1_apply]
  · rw [dif_neg hq, dif_neg hq, relu2_apply]

end Cert.ReferenceIdeal.RefValue

end
-- ==== Proof.lean ====
/-
  The certificate of the evaluation-network kernel against its jnp reference.

  The kernel computes, for each of 4096 batch rows, two hidden layers of 128 units — each unit a contraction over
  40960 features — rectifies them, and contracts the 256 rectified features with the second-layer weights. It does so
  on a grid of 8 batch tiles by 20 feature blocks, accumulating each hidden layer block by block in a buffer carried
  across the feature blocks and producing the output block at a tile's last feature block. The reference computes the
  same with three einsums.

  At the ideal values both are one function of the argument arrays (Proof/Spec.lean): the kernel because the 20
  partial contractions add up to the whole contraction (commutativity and associativity of the addition on the extended
  reals, so no finiteness of the inputs is used), the reference operation by operation. The three frames are the
  generated ones; the idealization rewrote nothing, so there is nothing to preserve.
-/
import proofs.«151705_j38869454029100_2_alg».proof.Defs
import proofs.«151705_j38869454029100_2_alg».proof.Proof.Gen.Kernel
import proofs.«151705_j38869454029100_2_alg».proof.Proof.Gen.Kernel.Frame
import proofs.«151705_j38869454029100_2_alg».proof.Proof.Gen.KernelIdeal
import proofs.«151705_j38869454029100_2_alg».proof.Proof.Gen.KernelIdeal.Frame
import proofs.«151705_j38869454029100_2_alg».proof.Proof.Gen.KernelIdeal.Value
import proofs.«151705_j38869454029100_2_alg».proof.Proof.Gen.ReferenceIdeal
import proofs.«151705_j38869454029100_2_alg».proof.Proof.Gen.ReferenceIdeal.Run
import proofs.«151705_j38869454029100_2_alg».proof.Proof.Gen.ReferenceIdeal.Read
import proofs.«151705_j38869454029100_2_alg».proof.Proof.Gen.Pre_finite_inputs
import proofs.«151705_j38869454029100_2_alg».proof.Proof.Final
import proofs.«151705_j38869454029100_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel's result array and the reference's result are the specification's output of
    arguments that agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2.1,
    (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
